-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S2048x256 : Shape := ⟨2, ![2048, 256]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S32768x256 .f32) (main_arg1 : FVec F S2048x256 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Kernel.lean ====
abbrev S32768x256 : Shape := ⟨2, ![32768, 256]⟩
abbrev S2048x256 : Shape := ⟨2, ![2048, 256]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S32768x256, .f32⟩
  | .hbm, ⟨1, _⟩ => ⟨S2048x256, .f32⟩
  | .hbm, ⟨2, _⟩ => ⟨S32768x256, .f32⟩
  | .local _ .vmem, ⟨0, _⟩ => ⟨S512x256, .f32⟩
  | .local _ .vmem, ⟨1, _⟩ => ⟨S512x256, .f32⟩
  | .local _ .vmem, ⟨2, _⟩ => ⟨S2048x256, .f32⟩
  | .local _ .vmem, ⟨3, _⟩ => ⟨S512x256, .f32⟩
  | .local _ .vmem, ⟨4, _⟩ => ⟨S512x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  reduces_S512x2048_S512 : S512x2048.Reduces [1] S512
  shapeCasts_S512_S512x1 : S512.ShapeCasts S512x1
  broadcasts_S512x1_S512x2048 : S512x1.Broadcasts S512x2048
  dot_S512x256_S2048x256_S512x2048_1_1_0_0_n_n_wf : DotDims.WF S512x256 S2048x256 S512x2048 [1] [1] [0] [0] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S32768x256.size a
  hwx0_0 : ∀ i : grid0.Coords, EltTy.bits .f32 = 32 ∨ (Rect.block (s := S32768x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S32768x256.size a
  hwx0_2 : ∀ i : grid0.Coords, EltTy.bits .f32 = 32 ∨ (Rect.block (s := S32768x256) S512x256.size (cc0_transform_2 i) (hinb0_2 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x256 : Shape := ⟨2, ![32768, 256]⟩
abbrev S2048x256 : Shape := ⟨2, ![2048, 256]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩

abbrev nBuf : Space → Nat
  | .hbm => 42
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S2048x256, .f32⟩
  | .hbm, ⟨2, _⟩ => ⟨S32768x2048, .f32⟩
  | .hbm, ⟨3, _⟩ => ⟨S_, .f32⟩
  | .hbm, ⟨4, _⟩ => ⟨S32768x2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S_, .f32⟩
  | .hbm, ⟨9, _⟩ => ⟨S32768, .f32⟩
  | .hbm, ⟨10, _⟩ => ⟨S32768, .f32⟩
  | .hbm, ⟨11, _⟩ => ⟨S32768x1, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S_, .f32⟩
  | .hbm, ⟨21, _⟩ => ⟨S32768x2048, .f32⟩
  | .hbm, ⟨22, _⟩ => ⟨S32768x2048, .f32⟩
  | .hbm, ⟨23, _⟩ => ⟨S_, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S32768x2048, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x2048, .f32⟩
  | .hbm, ⟨40, _⟩ => ⟨S32768x2048, .f32⟩
  | .hbm, ⟨41, _⟩ => ⟨S32768x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S_S32768x2048 : S_.BroadcastsInDim S32768x2048 (![] : Fin 0 → Fin S32768x2048.rank)
  reducesTo_S32768x2048_S32768_d1 : S32768x2048.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x2048_0_1 : S32768x1.BroadcastsInDim S32768x2048 (![0, 1] : Fin 2 → Fin S32768x2048.rank)
  bcast_S_S32768x1 : S_.BroadcastsInDim S32768x1 (![] : Fin 0 → Fin S32768x1.rank)
  dot_S32768x256_S2048x256_S32768x2048_1_1_0_0_n_n_wf : DotDims.WF S32768x256 S2048x256 S32768x2048 [1] [1] [0] [0] [] []
  dot_S32768x2048_S2048x256_S32768x256_1_0_0_1_n_n_wf : DotDims.WF S32768x2048 S2048x256 S32768x256 [1] [0] [0] [1] [] []

variable [Facts₀]

def dot_S32768x256_S2048x256_S32768x2048_1_1_0_0_n_n : DotDims S32768x256 S2048x256 S32768x2048 where
  lhsContracting := [1]
  rhsContracting := [1]
  lhsNonContracting := [0]
  rhsNonContracting := [0]
  lhsBatch := []
  rhsBatch := []
  wf := dot_S32768x256_S2048x256_S32768x2048_1_1_0_0_n_n_wf
def dot_S32768x2048_S2048x256_S32768x256_1_0_0_1_n_n : DotDims S32768x2048 S2048x256 S32768x256 where
  lhsContracting := [1]
  rhsContracting := [0]
  lhsNonContracting := [0]
  rhsNonContracting := [1]
  lhsBatch := []
  rhsBatch := []
  wf := dot_S32768x2048_S2048x256_S32768x256_1_0_0_1_n_n_wf

class Facts : Prop extends Facts₀ where

variable [Facts]
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.Weights.lean ====
/-
  Memory-bank attention on one row, over the extended reals.

  A row of scaled scores `t : Fin 2048 → EReal` is turned into a row of weights in three steps, each of them the
  same expression in both programs:
    softmax      e m = exp (t m - max (-∞) (the maximum of t, folded from -∞)),   s m = e m / ∑ e
    hard shrink  h m = (max (s m - λ) 0 · s m) / (|s m - λ| + ε)
    L1 normalise w m = h m / max (∑ |h|) ε
  with `|y| = max y (-y)` and the float literals kept as the patterns both programs spell. The output row is the
  weights against the memory bank, `out q = ∑ m, w m · mem (m, q)`, the scores being
  `t m = (∑ k, x k · mem (m, k)) · 2`.

  One program scales the scores by multiplying with `2`, the other by dividing by `1/2`; on the extended reals the
  quotient by a nonzero real IS the product with its reciprocal, at the infinities too (`scale_eq`), so no finiteness
  of the scores is used.
-/
import Idealize.ShloMosaic.PureOps.Ideal
import Idealize.ShloMosaic.PureOps.Ideal.Laws
import Idealize.ShloMosaic.Lib.ValueIdx

noncomputable section

namespace Cert.MemoryAttention

open Idealize.ShloMosaic Idealize.ShloMosaic.ValueIdx

/-- `-∞`, the value both maxima start from. -/
abbrev negInf : EReal := Ideal.ofBits .f32 0xFF800000#32
/-- `+0.0`. -/
abbrev zero : EReal := Ideal.ofBits .f32 0x00000000#32
/-- The shrink threshold λ (the f32 nearest 0.005). -/
abbrev lam : EReal := Ideal.ofBits .f32 0x3BA3D70A#32
/-- The guard ε of both quotients (the f32 nearest 1e-12). -/
abbrev eps : EReal := Ideal.ofBits .f32 0x2B8CBCCC#32
/-- `2.0`, the reciprocal of the temperature. -/
abbrev two : EReal := Ideal.ofBits .f32 0x40000000#32
/-- `0.5`, the temperature. -/
abbrev half : EReal := Ideal.ofBits .f32 0x3F000000#32

/-- The row's maximum as both programs take it: a fold of `max` from `-∞`, then once more against `-∞`. -/
def rowMax (t : Fin 2048 → EReal) : EReal :=
  max negInf ((Finset.univ : Finset (Fin 2048)).fold max negInf t)

/-- The shifted exponentials. -/
def expRow (t : Fin 2048 → EReal) (m : Fin 2048) : EReal := Ideal.exp (t m - rowMax t)

/-- The softmax of the row. -/
def soft (t : Fin 2048 → EReal) (m : Fin 2048) : EReal := Ideal.div (expRow t m) (∑ m' : Fin 2048, expRow t m')

/-- The hard shrink of the softmax: entries at or below λ go to `0`, the others are kept (up to the guard ε). -/
def shrink (t : Fin 2048 → EReal) (m : Fin 2048) : EReal :=
  Ideal.div (max (soft t m - lam) zero * soft t m) (max (soft t m - lam) (-(soft t m - lam)) + eps)

/-- The shrunk row divided by its L1 norm, the norm kept at least ε. -/
def weight (t : Fin 2048 → EReal) (m : Fin 2048) : EReal :=
  Ideal.div (shrink t m) (max (∑ m' : Fin 2048, max (shrink t m') (-(shrink t m'))) eps)

/-- The scaled scores of one row `x` against the memory bank. -/
def scores (x : Fin 256 → EReal) (mem : (⟨2, ![2048, 256]⟩ : Shape).Idx → EReal) (m : Fin 2048) : EReal :=
  (∑ k : Fin 256, x k * mem (ix2 m k)) * two

/-- One row of the result: the weights of the row's scores against the memory bank. -/
def attendRow (x : Fin 256 → EReal) (mem : (⟨2, ![2048, 256]⟩ : Shape).Idx → EReal) (q : Fin 256) : EReal :=
  ∑ m : Fin 2048, weight (scores x mem) m * mem (ix2 m q)

/-- The whole result: row `i 0` of `x` attended, read at column `i 1`. -/
def attend (x : (⟨2, ![32768, 256]⟩ : Shape).Idx → EReal) (mem : (⟨2, ![2048, 256]⟩ : Shape).Idx → EReal) :
    (⟨2, ![32768, 256]⟩ : Shape).Idx → EReal :=
  fun i => attendRow (fun k => x (ix2 (i 0) k)) mem (i 1)

/-- The pattern `0x3F000000` denotes the real `1/2`. -/
theorem half_eq : half = ((1 / 2 : ℝ) : EReal) := by
  simp [half, Ideal.ofBits, Ideal.ieee, -EReal.coe_mul]; norm_num

/-- The pattern `0x40000000` denotes the real `2`. -/
theorem two_eq : two = ((2 : ℝ) : EReal) := by
  simp [two, Ideal.ofBits, Ideal.ieee, -EReal.coe_mul]; norm_num

/-- Dividing by the temperature `1/2` is multiplying by `2`, for every extended real. -/
theorem scale_eq (s : EReal) : Ideal.div s half = s * two := by
  rw [half_eq, two_eq, Ideal.div_coe (by norm_num : (1 / 2 : ℝ) ≠ 0)]
  norm_num

end Cert.MemoryAttention

end
-- ==== Proof.KernelBlock.lean ====
/-
  What the kernel's body stores for one block of 512 rows, entry by entry.

  The body loads a `[512, 256]` block `x0` of the input and the whole `[2048, 256]` memory bank `x1`, and stores one
  `[512, 256]` value. Written as stages, that value is: the scores `x0 · x1ᵀ` times `2`; per row their maximum
  (folded from `-∞`, then once more against `-∞`), the shifted exponentials, the softmax, the hard shrink and the
  L1-normalised weights; and the weights times `x1`. Every stage but the two products and the three row reductions acts
  entry by entry, so at entry `(p, m)` it is the same expression of row `p` alone; a row reduction re-laid as a column
  and spread over the lanes reads, at `(p, m)`, the reduction of row `p`; and a product into the zero accumulator
  is the plain sum over the contracted coordinate. Hence entry `(p, q)` of the stored value is
  `attendRow (row p of x0) x1 q`. The narrowings to bf16 are the identity on the extended reals.
-/
import proofs.«141889_j12936441496249_1_alg».proof.Proof.Gen.KernelIdeal.Skeleton
import proofs.«141889_j12936441496249_1_alg».proof.Proof.LibKeepdims
import proofs.«141889_j12936441496249_1_alg».proof.Proof.Weights
import Idealize.ShloMosaic.PureOps.Ideal.Laws
import Idealize.ShloMosaic.Lib.ValueIdx

noncomputable section

namespace Cert.KernelIdeal.Block

open Cert.KernelIdeal Cert.KernelIdeal.Gen Idealize.ShloMosaic Idealize.ShloMosaic.ValueIdx
open Cert.MemoryAttention Cert.Lib.Keepdims

/-- The dimension record of the scores' product: both operands contracted along their axis 1. -/
abbrev dScores := dot_S512x256_S2048x256_S512x2048_1_1_0_0_n_n
/-- The dimension record of the final product: a plain rows-by-columns product. -/
abbrev dOut := dot_S512x2048_S2048x256_S512x256_1_0_0_1_n_n

/-! ## The body's value, stage by stage -/

/-- The scaled scores of the block. -/
def kScores (x0 : Vec Ideal S512x256 .f32) (x1 : Vec Ideal S2048x256 .f32) : FVec Ideal S512x2048 .f32 :=
  mulf (matmul dScores none (truncf .bf16 x0 bitsLt_bf16_f32) (truncf .bf16 x1 bitsLt_bf16_f32) (constant S512x2048 .f32 0x00000000#32))
    (broadcast S512x2048 (Scalar.ofBits (F := Ideal) .f32 0x40000000#32))

/-- Each row's maximum. -/
def kMax (v : FVec Ideal S512x2048 .f32) : FVec Ideal S512 .f32 :=
  maximumf (broadcast S512 (Scalar.ofBits (F := Ideal) .f32 0xFF800000#32))
    (multiReduction .maximumf [1] S512 v 0xFF800000#32 reduces_S512x2048_S512 (.inl rfl) rfl)

/-- Each row's sum. -/
def kSum (v : FVec Ideal S512x2048 .f32) : FVec Ideal S512 .f32 :=
  multiReduction .add [1] S512 v 0x00000000#32 reduces_S512x2048_S512 (.inl rfl) rfl

/-- A per-row value re-laid as a column and spread over the 2048 lanes of its row. -/
def kSpread (v : FVec Ideal S512 .f32) : FVec Ideal S512x2048 .f32 :=
  broadcastTo S512x2048 (shapeCast S512x1 v shapeCasts_S512_S512x1) broadcasts_S512x1_S512x2048

/-- The shifted exponentials. -/
def kExp (v : FVec Ideal S512x2048 .f32) : FVec Ideal S512x2048 .f32 := exp (subf v (kSpread (kMax v)))

/-- The softmax. -/
def kSoft (v : FVec Ideal S512x2048 .f32) : FVec Ideal S512x2048 .f32 := divf (kExp v) (kSpread (kSum (kExp v)))

/-- The hard shrink of the softmax. -/
def kShrink (v : FVec Ideal S512x2048 .f32) : FVec Ideal S512x2048 .f32 :=
  divf (mulf (maximumf (subf (kSoft v) (broadcast S512x2048 (Scalar.ofBits (F := Ideal) .f32 0x3BA3D70A#32)))
        (broadcast S512x2048 (Scalar.ofBits (F := Ideal) .f32 0x00000000#32))) (kSoft v))
    (addf (absf (subf (kSoft v) (broadcast S512x2048 (Scalar.ofBits (F := Ideal) .f32 0x3BA3D70A#32))))
      (broadcast S512x2048 (Scalar.ofBits (F := Ideal) .f32 0x2B8CBCCC#32)))

/-- The L1-normalised weights. -/
def kWeights (v : FVec Ideal S512x2048 .f32) : FVec Ideal S512x2048 .f32 :=
  divf (kShrink v) (broadcastTo S512x2048
    (maximumf (shapeCast S512x1 (kSum (absf (kShrink v))) shapeCasts_S512_S512x1)
      (broadcast S512x1 (Scalar.ofBits (F := Ideal) .f32 0x2B8CBCCC#32))) broadcasts_S512x1_S512x2048)

/-- The stored value is the stages composed: the printed payload's lines, grouped. -/
theorem pay_eq_stages (x0 : Vec Ideal S512x256 .f32) (x1 : Vec Ideal S2048x256 .f32) :
    k0_pay1 (F := Ideal) x0 x1
      = matmul dOut none (truncf .bf16 (kWeights (kScores x0 x1)) bitsLt_bf16_f32) (truncf .bf16 x1 bitsLt_bf16_f32)
          (constant S512x256 .f32 0x00000000#32) := rfl

/-! ## Each stage at an entry -/

/-- A scalar float literal denotes what its pattern denotes. -/
theorem scalarBits (b : BitVec 32) : Scalar.ofBits (F := Ideal) .f32 b = Ideal.ofBits .f32 b := rfl

theorem exp_apply {s : Shape} (v : FVec Ideal s .f32) (i : s.Idx) : exp v i = Ideal.exp (v i) := rfl

theorem absf_apply {s : Shape} (v : FVec Ideal s .f32) (i : s.Idx) : absf v i = max (v i) (-(v i)) := rfl

theorem dScores_lhs0 (i : S512x2048.Idx) (q : dScores.contr.Idx) : (dScores.lhsIdx i q 0).val = (i 0).val := by
  unfold DotDims.lhsIdx
  rw [dif_neg (show ¬(0 : Fin S512x256.rank) ∈ dScores.lhsBatch by decide),
    dif_pos (show (0 : Fin S512x256.rank) ∈ dScores.lhsNonContracting by decide)]
  rfl
theorem dScores_lhs1 (i : S512x2048.Idx) (q : dScores.contr.Idx) :
    (dScores.lhsIdx i q 1).val = (q ⟨0, by decide⟩).val := dScores.lhsIdx_val_of_single rfl i q
theorem dScores_rhs0 (i : S512x2048.Idx) (q : dScores.contr.Idx) : (dScores.rhsIdx i q 0).val = (i 1).val := by
  unfold DotDims.rhsIdx
  rw [dif_neg (show ¬(0 : Fin S2048x256.rank) ∈ dScores.rhsBatch by decide),
    dif_pos (show (0 : Fin S2048x256.rank) ∈ dScores.rhsNonContracting by decide)]
  rfl
theorem dScores_rhs1 (i : S512x2048.Idx) (q : dScores.contr.Idx) :
    (dScores.rhsIdx i q 1).val = (q ⟨0, by decide⟩).val := dScores.rhsIdx_val_of_single rfl i q

theorem dOut_lhs0 (i : S512x256.Idx) (q : dOut.contr.Idx) : (dOut.lhsIdx i q 0).val = (i 0).val := by
  unfold DotDims.lhsIdx
  rw [dif_neg (show ¬(0 : Fin S512x2048.rank) ∈ dOut.lhsBatch by decide),
    dif_pos (show (0 : Fin S512x2048.rank) ∈ dOut.lhsNonContracting by decide)]
  rfl
theorem dOut_lhs1 (i : S512x256.Idx) (q : dOut.contr.Idx) :
    (dOut.lhsIdx i q 1).val = (q ⟨0, by decide⟩).val := dOut.lhsIdx_val_of_single rfl i q
theorem dOut_rhs0 (i : S512x256.Idx) (q : dOut.contr.Idx) :
    (dOut.rhsIdx i q 0).val = (q ⟨0, by decide⟩).val := dOut.rhsIdx_val_of_single rfl i q
theorem dOut_rhs1 (i : S512x256.Idx) (q : dOut.contr.Idx) : (dOut.rhsIdx i q 1).val = (i 1).val := by
  unfold DotDims.rhsIdx
  rw [dif_neg (show ¬(1 : Fin S2048x256.rank) ∈ dOut.rhsBatch by decide),
    dif_pos (show (1 : Fin S2048x256.rank) ∈ dOut.rhsNonContracting by decide)]
  rfl

/-- The left operand's index of the scores' product at output `(p, m)` and contracted coordinate `k` is `(p, k)`. -/
theorem dScores_lhsIdx (p : Fin 512) (m : Fin 2048) (k : Fin 256) :
    dScores.lhsIdx (ix2 p m) ((contrEquiv1 dScores 256 rfl rfl).symm k) = ix2 p k :=
  funext fun a => Fin.ext (by
    have hk := contrEquiv1_symm_val dScores 256 rfl rfl k
    match a with
    | ⟨0, _⟩ => exact dScores_lhs0 _ _
    | ⟨1, _⟩ => exact (dScores_lhs1 _ _).trans hk)

/-- The right operand's index there is `(m, k)`: the memory bank is contracted along its axis 1 too. -/
theorem dScores_rhsIdx (p : Fin 512) (m : Fin 2048) (k : Fin 256) :
    dScores.rhsIdx (ix2 p m) ((contrEquiv1 dScores 256 rfl rfl).symm k) = ix2 m k :=
  funext fun a => Fin.ext (by
    have hk := contrEquiv1_symm_val dScores 256 rfl rfl k
    match a with
    | ⟨0, _⟩ => exact dScores_rhs0 _ _
    | ⟨1, _⟩ => exact (dScores_rhs1 _ _).trans hk)

/-- The left operand's index of the final product at output `(p, q)` and contracted coordinate `m` is `(p, m)`. -/
theorem dOut_lhsIdx (p : Fin 512) (q : Fin 256) (m : Fin 2048) :
    dOut.lhsIdx (ix2 p q) ((contrEquiv1 dOut 2048 rfl rfl).symm m) = ix2 p m :=
  funext fun a => Fin.ext (by
    have hk := contrEquiv1_symm_val dOut 2048 rfl rfl m
    match a with
    | ⟨0, _⟩ => exact dOut_lhs0 _ _
    | ⟨1, _⟩ => exact (dOut_lhs1 _ _).trans hk)

/-- The right operand's index there is `(m, q)`. -/
theorem dOut_rhsIdx (p : Fin 512) (q : Fin 256) (m : Fin 2048) :
    dOut.rhsIdx (ix2 p q) ((contrEquiv1 dOut 2048 rfl rfl).symm m) = ix2 m q :=
  funext fun a => Fin.ext (by
    have hk := contrEquiv1_symm_val dOut 2048 rfl rfl m
    match a with
    | ⟨0, _⟩ => exact (dOut_rhs0 _ _).trans hk
    | ⟨1, _⟩ => exact dOut_rhs1 _ _)

/-- The scores at `(p, m)`: row `p` of the block against row `m` of the memory bank, times `2`. -/
theorem kScores_apply (x0 : Vec Ideal S512x256 .f32) (x1 : Vec Ideal S2048x256 .f32) (p : Fin 512) (m : Fin 2048) :
    kScores x0 x1 (ix2 p m) = scores (fun k => x0 (ix2 p k)) x1 m := by
  unfold kScores scores
  simp only [mulf_apply, broadcast_apply, scalarBits]
  refine congrArg (· * two) ?_
  refine (Ideal.matmul_constant_zero_apply dScores none _ _ (ix2 p m)).trans ?_
  rw [← Equiv.sum_comp (contrEquiv1 dScores 256 rfl rfl).symm]
  refine Finset.sum_congr rfl fun k _ => ?_
  rw [dScores_lhsIdx, dScores_rhsIdx]
  rfl

/-- A row's maximum at `p`. -/
theorem kMax_apply (v : FVec Ideal S512x2048 .f32) (p : Fin 512) :
    kMax v (ix1 p) = rowMax (fun m => v (ix2 p m)) := by
  unfold kMax rowMax
  refine (maximumf_apply _ _ (ix1 p)).trans ?_
  refine congrArg₂ max (scalarBits 0xFF800000#32) ?_
  refine (Ideal.multiReduction_maximumf_single v 0xFF800000#32 reduces_S512x2048_S512 (.inl rfl) rfl (ix1 p)).trans ?_
  rw [Ideal.ofBits_def]
  refine congrArg (fun f => Finset.fold max negInf f (Finset.univ : Finset (Fin 2048))) ?_
  funext k
  exact congrArg v (lift_axis1 reduces_S512x2048_S512 p k)

/-- A row's sum at `p`. -/
theorem kSum_apply (v : FVec Ideal S512x2048 .f32) (p : Fin 512) :
    kSum v (ix1 p) = ∑ m : Fin 2048, v (ix2 p m) := by
  unfold kSum
  refine (Ideal.multiReduction_add_single v 0x00000000#32 reduces_S512x2048_S512 (.inl rfl) rfl (ix1 p)).trans ?_
  exact Finset.sum_congr rfl fun k _ => congrArg v (lift_axis1 reduces_S512x2048_S512 p k)

/-- A per-row value spread over its row reads, anywhere in row `p`, the value of row `p`. -/
theorem kSpread_apply (v : FVec Ideal S512 .f32) (p : Fin 512) (m : Fin 2048) : kSpread v (ix2 p m) = v (ix1 p) :=
  column_spread_apply v shapeCasts_S512_S512x1 broadcasts_S512x1_S512x2048 p m

theorem kExp_apply (v : FVec Ideal S512x2048 .f32) (p : Fin 512) (m : Fin 2048) :
    kExp v (ix2 p m) = expRow (fun m' => v (ix2 p m')) m := by
  unfold kExp expRow
  simp only [exp_apply, subf_apply, kSpread_apply, kMax_apply]

theorem kSoft_apply (v : FVec Ideal S512x2048 .f32) (p : Fin 512) (m : Fin 2048) :
    kSoft v (ix2 p m) = soft (fun m' => v (ix2 p m')) m := by
  unfold kSoft soft
  simp only [divf_apply, kSpread_apply, kSum_apply, kExp_apply]

theorem kShrink_apply (v : FVec Ideal S512x2048 .f32) (p : Fin 512) (m : Fin 2048) :
    kShrink v (ix2 p m) = shrink (fun m' => v (ix2 p m')) m := by
  unfold kShrink shrink
  simp only [divf_apply, mulf_apply, maximumf_apply, subf_apply, addf_apply, absf_apply, broadcast_apply, scalarBits,
    kSoft_apply]

theorem kWeights_apply (v : FVec Ideal S512x2048 .f32) (p : Fin 512) (m : Fin 2048) :
    kWeights v (ix2 p m) = weight (fun m' => v (ix2 p m')) m := by
  unfold kWeights weight
  simp only [divf_apply]
  refine congrArg₂ Ideal.div (kShrink_apply v p m) ?_
  refine (broadcastTo_a1_ab_apply _ broadcasts_S512x1_S512x2048 p m).trans ?_
  simp only [maximumf_apply, broadcast_apply, scalarBits]
  refine congrArg (max · eps) ?_
  refine (shapeCast_a_a1_apply _ shapeCasts_S512_S512x1 p 0).trans ?_
  refine (kSum_apply _ p).trans ?_
  refine Finset.sum_congr rfl fun m' _ => ?_
  simp only [absf_apply, kShrink_apply]

/-! ## The stored value at an entry -/

/-- Entry `(p, q)` of what the body stores: row `p` of the block attended against the memory bank, at column `q`. -/
theorem pay_apply (x0 : Vec Ideal S512x256 .f32) (x1 : Vec Ideal S2048x256 .f32) (p : Fin 512) (q : Fin 256) :
    k0_pay1 (F := Ideal) x0 x1 (ix2 p q) = attendRow (fun k => x0 (ix2 p k)) x1 q := by
  rw [pay_eq_stages]
  unfold attendRow
  refine (Ideal.matmul_constant_zero_apply dOut none _ _ (ix2 p q)).trans ?_
  rw [← Equiv.sum_comp (contrEquiv1 dOut 2048 rfl rfl).symm]
  refine Finset.sum_congr rfl fun m _ => ?_
  rw [dOut_lhsIdx, dOut_rhsIdx]
  simp only [truncf_apply, kWeights_apply]
  refine congrArg (fun t => weight t m * x1 (ix2 m q)) ?_
  funext m'
  exact kScores_apply x0 x1 p m'

end Cert.KernelIdeal.Block

end
-- ==== Proof.KernelArray.lean ====
/-
  From the blocks to the whole result.

  The grid has 64 points. At point `t` the kernel reads rows `512 t … 512 t + 511` of `x` and the whole memory bank, and
  writes back rows `512 t … 512 t + 511` of the result. An entry of the result depends on its own row of `x` only, so what
  point `t` writes back is the block of `attend x mem` at those rows; the 64 blocks cover every row (row `r` lies in the
  block of point `r / 512`), hence after the run the result array IS `attend x mem`.
-/
import proofs.«141889_j12936441496249_1_alg».proof.Proof.Gen.KernelIdeal.Value
import proofs.«141889_j12936441496249_1_alg».proof.Proof.KernelBlock
import proofs.«141889_j12936441496249_1_alg».proof.Proof.Weights
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.MemoryAttention Cert.KernelIdeal.Block
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- What the body stores, read at an entry `j` of the block, is `attend X M` at any array index `i` in the same column whose row
    of `X` is the block's row `j 0`, when the second operand is the whole memory bank `M`. -/
theorem stored_at (X : S32768x256.Idx → EReal) (M : S2048x256.Idx → EReal)
    (x0 : Vec Ideal S512x256 .f32) (x1 : Vec Ideal S2048x256 .f32) (j : S512x256.Idx) (i : S32768x256.Idx)
    (hrow : ∀ k : Fin 256, x0 (ix2 (j 0) k) = X (ix2 (i 0) k)) (hmem : x1 = M) (hcol : i 1 = j 1) :
    k0_pay1 (F := Ideal) x0 x1 j = attend X M i := by
  obtain ⟨p, q, rfl⟩ : ∃ (p : Fin 512) (q : Fin 256), j = ix2 p q := ⟨j 0, j 1, eq_ix2 j⟩
  subst hmem
  rw [pay_apply]
  unfold attend
  have hr : (fun k : Fin 256 => x0 (ix2 p k)) = fun k => X (ix2 (i 0) k) := funext hrow
  have hc : i 1 = q := hcol
  rw [hr, hc]

/-- The printed index maps over the 64 points: the input's and the result's blocks move down the rows with the point,
    the memory bank's block stays. -/
theorem blockIndices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem blockOnto : ∀ q0 : Fin 64, ∃ t : Fin cfg0.N, win0_2.index t = ![q0.val, 0] :=
  (by decide +kernel : ∀ q0 : Fin 64, ∃ t : Fin grid0.N, win0_2.index t = ![q0.val, 0])

/-- What point `t` writes back is block `t` of `attend` of the argument arrays. -/
theorem flushed_eq (c : Dev nD) (t : Fin cfg0.N) :
    (dats m 0 c).flushed 2 t
      = ((cfg0.win 2).blk t).view.read (Elt Ideal) (attend (V m c main_arg0) (V m c main_arg1)) := by
  rw [Cert.KernelIdeal.Value.flushed2]
  unfold out0_2
  rw [View.canon_unit_zero zeroOffsets]
  simp only [View.ld_unit_zero (S := S512x256) zeroOffsets, View.ld_unit_zero (S := S2048x256) zeroOffsets]
  obtain ⟨e00, e01, e10, e11, e20, e21⟩ := blockIndices t
  funext j
  show k0_pay1 (F := Ideal) (iblk m c 0 t) (iblk m c 1 t) j
    = attend (V m c main_arg0) (V m c main_arg1) (((cfg0.win 2).blk t).view.emb j)
  refine stored_at (V m c main_arg0) (V m c main_arg1) (iblk m c 0 t) (iblk m c 1 t) j
    (((cfg0.win 2).blk t).view.emb j) (fun k => ?_) ?_ ?_
  · show V m c main_arg0 (((cfg0.win 0).blk t).view.emb (ix2 (j 0) k))
      = V m c main_arg0 (ix2 ((((cfg0.win 2).blk t).view.emb j) 0) k)
    refine congrArg (V m c main_arg0) (funext fun a => Fin.ext ?_)
    match a with
    | ⟨0, _⟩ =>
      show win0_0.index t (0 : Fin 2) * 512 + 1 * (j 0).val = win0_2.index t (0 : Fin 2) * 512 + 1 * (j 0).val
      omega
    | ⟨1, _⟩ =>
      show win0_0.index t (1 : Fin 2) * 256 + 1 * k.val = k.val
      omega
  · funext y
    show V m c main_arg1 (((cfg0.win 1).blk t).view.emb y) = V m c main_arg1 y
    refine congrArg (V m c main_arg1) (funext fun a => Fin.ext ?_)
    match a with
    | ⟨0, _⟩ => show win0_1.index t (0 : Fin 2) * 2048 + 1 * (y 0).val = (y 0).val; omega
    | ⟨1, _⟩ => show win0_1.index t (1 : Fin 2) * 256 + 1 * (y 1).val = (y 1).val; omega
  · refine Fin.ext ?_
    show win0_2.index t (1 : Fin 2) * 256 + 1 * (j 1).val = (j 1).val
    omega

/-- An index of the result is in point `t`'s block iff each coordinate is in the block's range on its axis. -/
theorem mem_block (t : Fin cfg0.N) (i : S32768x256.Idx) :
    i ∈ ((cfg0.win 2).blk t).view.set ↔ ∀ a : Fin 2, win0_2.index t a * S512x256.size a ≤ (i a).val
      ∧ (i a).val < win0_2.index t a * S512x256.size a + S512x256.size a := by
  show i ∈ ((View.whole main_v0).slice (win0_2.rect t)).set ↔ _
  rw [View.set_slice_whole, Rect.mem_set_unit]
  exact Iff.rfl

/-- Every index of the result lies in the block of the point its row belongs to. -/
theorem covered (i : S32768x256.Idx) :
    ∃ t : Fin cfg0.N, (cfg0.win 2).flush t = true ∧ i ∈ ((cfg0.win 2).blk t).view.set := by
  have hi0 : (i 0).val < 32768 := (i 0).isLt
  have hi1 : (i 1).val < 256 := (i 1).isLt
  obtain ⟨t, ht⟩ := blockOnto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 256 ≤ (i 1).val ∧ (i 1).val < win0_2.index t (1 : Fin 2) * 256 + 256
    omega

/-- After the run the result array is `attend` of the two argument arrays. -/
theorem final (c : Dev nD) :
    (dats m 0 c).arrAt 2 cfg0.N
      = attend (m ((c : Thread nD τ).loc main_arg0)) (m ((c : Thread nD τ).loc main_arg1)) :=
  (dats m 0 c).arrAt_eq_of_cover 2 _ (fun t _ => flushed_eq m c t) covered

/-- The kernel's run: it terminates with the result at `attend` of the arguments and the arguments unchanged. -/
theorem run : θ_run defs (onTc (τ := τ) (main (F := Ideal))) ⟨m, fun _ => 0, ρ⟩ fun r => ∀ c : Dev nD,
      r.2.mem ((c : Thread nD τ).loc main_v0)
        = attend (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.ReferenceRows.lean ====
/-
  The reference's result, entry by entry.

  The reference computes on whole arrays what the kernel computes block by block: the scores `x · memᵀ` divided by the
  temperature `1/2`, per row their maximum, the shifted exponentials, the softmax, the hard shrink, the L1-normalised
  weights, and the weights times `mem`. Read one operation at a time at an entry `(b, m)`, every stage is the matching
  stage of `Cert.MemoryAttention` applied to row `b` of the scores: a row reduction is a fold or a sum over the row's
  2048 coordinates (the sums start from `+0.0`, which is `0`), a value broadcast back along the row reads the row's
  entry, and the quotient by `1/2` is the product with `2`. So the result at `(b, q)` is `attendRow (row b of x) mem q`.
-/
import proofs.«141889_j12936441496249_1_alg».proof.Proof.Gen.ReferenceIdeal.Read
import proofs.«141889_j12936441496249_1_alg».proof.Proof.LibKeepdims
import proofs.«141889_j12936441496249_1_alg».proof.Proof.Weights
import Idealize.ShloMosaic.PureOps.Ideal.Laws
import Idealize.ShloMosaic.PureOps.Reduce
import Idealize.ShloMosaic.Lib.ValueIdx

noncomputable section

namespace Cert.ReferenceIdeal.Rows

open Cert.ReferenceIdeal Cert.ReferenceIdeal.Gen Cert.ReferenceIdeal.Read Idealize.ShloMosaic Idealize.ShloMosaic.ValueIdx
open Cert.MemoryAttention Cert.Lib.Keepdims

variable (x0 : (⟨S32768x256, .f32⟩ : BufTy).Contents (Elt Ideal)) (x1 : (⟨S2048x256, .f32⟩ : BufTy).Contents (Elt Ideal))

/-- Row `b` of the reference's scaled scores. -/
abbrev scoreRow (b : Fin 32768) : Fin 2048 → EReal := fun m => val_main_v2 (F := Ideal) x0 x1 (ix2 b m)

/-- The host's maximum is the extended reals' `max`, so a fold of one is a fold of the other. -/
theorem fold_maximumf (c : EReal) (f : Fin 2048 → EReal) :
    Finset.fold (FloatOps.maximumf (F := Ideal) (φ := .f32)) c f Finset.univ = Finset.fold max c f Finset.univ := rfl

/-- The scaled scores at `(b, m)`: row `b` of `x` against row `m` of the memory bank, divided by `1/2`, that is times `2`. -/
theorem scores_at (b : Fin 32768) (m : Fin 2048) :
    val_main_v2 (F := Ideal) x0 x1 (ix2 b m) = scores (fun k => x0 (ix2 b k)) x1 m := by
  rw [val_main_v2_apply, val_main_v0_apply, val_main_v1_apply, val_main_cst_apply, Ideal.hostDivf_def, Ideal.ofBits_def]
  refine (scale_eq _).trans ?_
  unfold scores
  refine congrArg (· * two) (Finset.sum_congr rfl fun k _ => ?_)
  have el : lidx_main_v0 (ix2 b m) k = ix2 b k :=
    funext fun a => Fin.ext (by match a with | ⟨0, _⟩ => rfl | ⟨1, _⟩ => rfl)
  have er : ridx_main_v0 (ix2 b m) k = ix2 m k :=
    funext fun a => Fin.ext (by match a with | ⟨0, _⟩ => rfl | ⟨1, _⟩ => rfl)
  rw [el, er]

/-- The row maximum at `b`: the host's reduction is the fold of `max` from `-∞` over the row, then `max` against `-∞`. -/
theorem max_at (b : Fin 32768) : val_main_v5 (F := Ideal) x0 x1 (ix1 b) = rowMax (scoreRow x0 x1 b) := by
  rw [val_main_v5_apply, val_main_v4_apply, val_main_cst_1_apply, Ideal.maximumf_def, Ideal.ofBits_def]
  unfold rowMax
  refine congrArg (max negInf) ?_
  unfold val_main_v3
  have hR : S32768x2048.Reduces [1] S32768 := by decide
  refine (Host.reduce_eq_fold_single (FloatOps.maximumf (F := Ideal) (φ := .f32)) (val_main_v2 (F := Ideal) x0 x1)
    (val_main_cst_0 (F := Ideal)) reducesTo_S32768x2048_S32768_d1 hR h_S_ (ix1 b)).trans ?_
  rw [val_main_cst_0_apply, Ideal.ofBits_def]
  refine (fold_maximumf _ _).trans ?_
  refine congrArg (fun f => Finset.fold max negInf f (Finset.univ : Finset (Fin 2048))) ?_
  funext k
  exact congrArg (val_main_v2 (F := Ideal) x0 x1) (lift_axis1 _ b k)

theorem exp_at (b : Fin 32768) (m : Fin 2048) :
    val_main_v9 (F := Ideal) x0 x1 (ix2 b m) = expRow (scoreRow x0 x1 b) m := by
  rw [val_main_v9_apply, val_main_v8_apply, val_main_v7_apply, val_main_v6_apply]
  have e : idx_main_v6 (idx_main_v7 (ix2 b m)) = ix1 b := funext fun a => Fin.ext (by match a with | ⟨0, _⟩ => rfl)
  rw [e, max_at]
  rfl

theorem soft_at (b : Fin 32768) (m : Fin 2048) :
    val_main_v13 (F := Ideal) x0 x1 (ix2 b m) = soft (scoreRow x0 x1 b) m := by
  rw [val_main_v13_apply, val_main_v12_apply, val_main_v11_apply]
  have e : idx_main_v11 (idx_main_v12 (ix2 b m)) = ix1 b := funext fun a => Fin.ext (by match a with | ⟨0, _⟩ => rfl)
  rw [e, val_main_v10_apply, val_main_cst_2_apply, exp_at, Ideal.hostDivf_def, Ideal.ofBits_def, Ideal.ofBits_zero_f32,
    zero_add]
  unfold soft
  refine congrArg (Ideal.div _) (Finset.sum_congr rfl fun k _ => ?_)
  have ek : idx_main_v10 (ix1 b) k = ix2 b k :=
    funext fun a => Fin.ext (by match a with | ⟨0, _⟩ => rfl | ⟨1, _⟩ => rfl)
  rw [ek, exp_at]

theorem shrink_at (b : Fin 32768) (m : Fin 2048) :
    val_main_v21 (F := Ideal) x0 x1 (ix2 b m) = shrink (scoreRow x0 x1 b) m := by
  rw [val_main_v21_apply, val_main_v17_apply, val_main_v16_apply, val_main_v20_apply, val_main_v18_apply,
    val_main_v15_apply, val_main_v14_apply, val_main_cst_3_apply, val_main_call0_v0_apply, val_main_call0_cst_apply,
    val_main_v19_apply, val_main_cst_4_apply, soft_at, Ideal.hostDivf_def, Ideal.mulf_def, Ideal.maximumf_def,
    Ideal.subf_def, Ideal.addf_def, Ideal.hostAbsf_def, Ideal.absf_def, Ideal.ofBits_def, Ideal.ofBits_def,
    Ideal.ofBits_def]
  rfl

theorem weight_at (b : Fin 32768) (m : Fin 2048) :
    val_main_v28 (F := Ideal) x0 x1 (ix2 b m) = weight (scoreRow x0 x1 b) m := by
  rw [val_main_v28_apply, val_main_v27_apply, val_main_v26_apply, val_main_v25_apply, val_main_cst_6_apply,
    val_main_v24_apply]
  have e : idx_main_v24 (idx_main_v27 (ix2 b m)) = ix1 b := funext fun a => Fin.ext (by match a with | ⟨0, _⟩ => rfl)
  rw [e, val_main_v23_apply, val_main_cst_5_apply, shrink_at, Ideal.hostDivf_def, Ideal.maximumf_def, Ideal.ofBits_def,
    Ideal.ofBits_def, Ideal.ofBits_zero_f32, zero_add]
  unfold weight
  refine congrArg (fun s => Ideal.div (shrink (scoreRow x0 x1 b) m) (max s eps)) (Finset.sum_congr rfl fun k _ => ?_)
  have ek : idx_main_v23 (ix1 b) k = ix2 b k :=
    funext fun a => Fin.ext (by match a with | ⟨0, _⟩ => rfl | ⟨1, _⟩ => rfl)
  rw [ek, val_main_v22_apply, shrink_at]
  rfl

/-- The reference's result is `attend`: at `(b, q)`, row `b` of `x` attended against the memory bank, at column `q`. -/
theorem result_eq : val_main_v29 (F := Ideal) x0 x1 = attend x0 x1 := by
  funext i
  obtain ⟨b, q, rfl⟩ : ∃ (b : Fin 32768) (q : Fin 256), i = ix2 b q := ⟨i 0, i 1, eq_ix2 i⟩
  rw [val_main_v29_apply]
  unfold attend attendRow
  refine Finset.sum_congr rfl fun m _ => ?_
  have el : lidx_main_v29 (ix2 b q) m = ix2 b m :=
    funext fun a => Fin.ext (by match a with | ⟨0, _⟩ => rfl | ⟨1, _⟩ => rfl)
  have er : ridx_main_v29 (ix2 b q) m = ix2 m q :=
    funext fun a => Fin.ext (by match a with | ⟨0, _⟩ => rfl | ⟨1, _⟩ => rfl)
  rw [el, er, weight_at]
  refine congrArg (fun t => weight t m * x1 (ix2 m q)) ?_
  funext m'
  exact scores_at x0 x1 b m'

end Cert.ReferenceIdeal.Rows

end
-- ==== Proof.lean ====
/-
  Memory-bank attention: a Pallas kernel over 64 blocks of 512 rows against its jnp reference, equal on the extended reals.

  Both programs compute, for every row `b` of `x : [32768, 256]` and the memory bank `mem : [2048, 256]`,
    scores   t m = (∑ k, x (b, k) · mem (m, k)) · 2
    softmax  s m = exp (t m - max t) / ∑ exp (t - max t)
    shrink   h m = (max (s m - λ) 0 · s m) / (|s m - λ| + ε)
    weights  w m = h m / max (∑ |h|) ε
    result   out (b, q) = ∑ m, w m · mem (m, q)
  (`Cert.MemoryAttention.attend`, Proof/Weights.lean). The kernel narrows its matrix operands to bf16 — the identity on the
  extended reals —, multiplies the scores by `2` where the reference divides by `1/2` — the same extended real, at the
  infinities too —, and works on one block of 512 rows per grid point, which changes nothing because a row of the result
  depends on that row of `x` alone. Every other operation is the same expression on both sides, literal by literal, so
  the equality needs no algebra beyond that one law and never uses that the inputs are finite.

  Proof/KernelBlock.lean reads what the body stores at an entry; Proof/KernelArray.lean assembles the 64 blocks into the
  result array over the generated blockwise run; Proof/ReferenceRows.lean reads the reference's generated run at an entry.
  The three frames are the generated ones (the reference's is its run with the result dropped), and the idealization
  rewrote nothing, so there is nothing to preserve.
-/
import proofs.«141889_j12936441496249_1_alg».proof.Defs
import proofs.«141889_j12936441496249_1_alg».proof.Proof.Gen.Kernel
import proofs.«141889_j12936441496249_1_alg».proof.Proof.Gen.Kernel.Frame
import proofs.«141889_j12936441496249_1_alg».proof.Proof.Gen.KernelIdeal
import proofs.«141889_j12936441496249_1_alg».proof.Proof.Gen.KernelIdeal.Frame
import proofs.«141889_j12936441496249_1_alg».proof.Proof.Gen.KernelIdeal.Value
import proofs.«141889_j12936441496249_1_alg».proof.Proof.Gen.ReferenceIdeal
import proofs.«141889_j12936441496249_1_alg».proof.Proof.Gen.ReferenceIdeal.Run
import proofs.«141889_j12936441496249_1_alg».proof.Proof.Gen.ReferenceIdeal.Read
import proofs.«141889_j12936441496249_1_alg».proof.Proof.Gen.Pre_finite_inputs
import proofs.«141889_j12936441496249_1_alg».proof.Proof.KernelArray
import proofs.«141889_j12936441496249_1_alg».proof.Proof.ReferenceRows
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x` and `mem`, both programs end with the result at `attend x mem`: the kernel's 64 blocks
    assembled (Proof/KernelArray.lean), the reference's composed operations read entry by entry (Proof/ReferenceRows.lean). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.Rows.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
